-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S5000x64 : Shape := ⟨2, ![5000, 64]⟩
abbrev S1300000x64 : Shape := ⟨2, ![1300000, 64]⟩
abbrev S1x64 : Shape := ⟨2, ![1, 64]⟩
abbrev S100000x32 : Shape := ⟨2, ![100000, 32]⟩
abbrev S5000x32 : Shape := ⟨2, ![5000, 32]⟩
abbrev S1300000x32 : Shape := ⟨2, ![1300000, 32]⟩
abbrev S1x32 : Shape := ⟨2, ![1, 32]⟩

abbrev nBuf : Space → Nat
  | .hbm => 86
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S_, .i32⟩
  | .hbm, ⟨68, _⟩ => ⟨S1300000, .i32⟩
  | .hbm, ⟨69, _⟩ => ⟨S1300000, .i1⟩
  | .hbm, ⟨70, _⟩ => ⟨S_, .i32⟩
  | .hbm, ⟨71, _⟩ => ⟨S1300000, .i32⟩
  | .hbm, ⟨72, _⟩ => ⟨S1300000, .i32⟩
  | .hbm, ⟨73, _⟩ => ⟨S1300000, .i32⟩
  | .hbm, ⟨74, _⟩ => ⟨S1300000x1, .i32⟩
  | .hbm, ⟨75, _⟩ => ⟨S1300000x32, .f32⟩
  | .hbm, ⟨76, _⟩ => ⟨S1300000x1, .f32⟩
  | .hbm, ⟨77, _⟩ => ⟨S1300000x32, .f32⟩
  | .hbm, ⟨78, _⟩ => ⟨S1300000x32, .f32⟩
  | .hbm, ⟨79, _⟩ => ⟨S_, .f32⟩
  | .hbm, ⟨80, _⟩ => ⟨S100000x32, .f32⟩
  | .hbm, ⟨81, _⟩ => ⟨S1300000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1300000x1_S1300000x32_0_1 : S1300000x1.BroadcastsInDim S1300000x32 (![0, 1] : Fin 2 → Fin S1300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x32_S5000x32_1_0_0_1_n_n_wf : DotDims.WF S5000x64 S64x32 S5000x32 [1] [0] [0] [1] [] []
  gather_S100000x32_S1300000x1_S1300000x32_1_0_n_n_0_1_132_wf : GatherDims.WF S100000x32 S1300000x1 S1300000x32 [1] [0] [] [0] [] 1 ![1, 32]
  scatter_S100000x32_S1300000x1_S1300000x32_1_0_0_1_wf : ScatterDims.WF S100000x32 S1300000x1 S1300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1300000x1_S1300000x32_1_0_n_n_0_1_132 : GatherDims S100000x32 S1300000x1 S1300000x32 where
  offsetDims := [1]
  collapsedSliceDims := [0]
  operandBatchingDims := []
  startIndicesBatchingDims := []
  startIndexMap := [0]
  indexVectorDim := 1
  sliceSizes := ![1, 32]
  wf := gather_S100000x32_S1300000x1_S1300000x32_1_0_n_n_0_1_132_wf
def scatter_S100000x32_S1300000x1_S1300000x32_1_0_0_1 : ScatterDims S100000x32 S1300000x1 S1300000x32 where
  updateWindowDims := [1]
  insertedWindowDims := [0]
  scatterDimsToOperandDims := [0]
  indexVectorDim := 1
  wf := scatter_S100000x32_S1300000x1_S1300000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x32 : Shape := ⟨2, ![100000, 32]⟩
abbrev S1300000x32 : Shape := ⟨2, ![1300000, 32]⟩
abbrev S1x32 : Shape := ⟨2, ![1, 32]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S_, .i32⟩
  | .hbm, ⟨68, _⟩ => ⟨S1300000, .i32⟩
  | .hbm, ⟨69, _⟩ => ⟨S1300000, .i1⟩
  | .hbm, ⟨70, _⟩ => ⟨S_, .i32⟩
  | .hbm, ⟨71, _⟩ => ⟨S1300000, .i32⟩
  | .hbm, ⟨72, _⟩ => ⟨S1300000, .i32⟩
  | .hbm, ⟨73, _⟩ => ⟨S1300000, .i32⟩
  | .hbm, ⟨74, _⟩ => ⟨S1300000x1, .i32⟩
  | .hbm, ⟨75, _⟩ => ⟨S1300000x32, .f32⟩
  | .hbm, ⟨76, _⟩ => ⟨S1300000x1, .f32⟩
  | .hbm, ⟨77, _⟩ => ⟨S1300000x32, .f32⟩
  | .hbm, ⟨78, _⟩ => ⟨S1300000x32, .f32⟩
  | .hbm, ⟨79, _⟩ => ⟨S_, .f32⟩
  | .hbm, ⟨80, _⟩ => ⟨S100000x32, .f32⟩
  | .hbm, ⟨81, _⟩ => ⟨S1300000x1, .i32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x32_0_1 : S1300000x1.BroadcastsInDim S1300000x32 (![0, 1] : Fin 2 → Fin S1300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []
  gather_S100000x32_S1300000x1_S1300000x32_1_0_n_n_0_1_132_wf : GatherDims.WF S100000x32 S1300000x1 S1300000x32 [1] [0] [] [0] [] 1 ![1, 32]
  scatter_S100000x32_S1300000x1_S1300000x32_1_0_0_1_wf : ScatterDims.WF S100000x32 S1300000x1 S1300000x32 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1300000x1_S1300000x32_1_0_n_n_0_1_132 : GatherDims S100000x32 S1300000x1 S1300000x32 where
  offsetDims := [1]
  collapsedSliceDims := [0]
  operandBatchingDims := []
  startIndicesBatchingDims := []
  startIndexMap := [0]
  indexVectorDim := 1
  sliceSizes := ![1, 32]
  wf := gather_S100000x32_S1300000x1_S1300000x32_1_0_n_n_0_1_132_wf
def scatter_S100000x32_S1300000x1_S1300000x32_1_0_0_1 : ScatterDims S100000x32 S1300000x1 S1300000x32 where
  updateWindowDims := [1]
  insertedWindowDims := [0]
  scatterDimsToOperandDims := [0]
  indexVectorDim := 1
  wf := scatter_S100000x32_S1300000x1_S1300000x32_1_0_0_1_wf

class Facts : Prop extends Facts₀ where

variable [Facts]
-- ==== Proof.KernelRun.lean ====
/-
  The idealized kernel's run with its result buffer named.

  @main is seven segments: three stretches of host operations, the first pallas_call (the rows of `x` times `W1`, twenty
  blocks of 5000 rows), a stretch of host operations, the second pallas_call (the rows of the hidden layer times `W2`),
  and a last stretch of host operations. The generated frame folds the device's buffer contents through these segments
  (`W0 … W7`: a stretch's `StableHlo.after`, a region's arrays at what its write-backs leave) and proves that every
  weakly fair execution terminates with every unscoped buffer at the last boundary's contents `W7`. Read at the result
  buffer as well as at the arguments, that is the run below: the result ends at `W7 m ρ c` of its own buffer.
-/
import proofs.«146250_j68865505624665_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds when @main returns: the last boundary's contents, read at the result. -/
abbrev result (c : Dev nD) : Buf (Elt F) ((c.tc : Thread nD τ).loc main_v63) := W7 m ρ c (Proc.devRef .tc main_v63)

set_option backward.isDefEq.respectTransparency.types false in
/-- Every weakly fair execution of @main terminates, nothing faulting, with the result buffer at `result` and the argument
    arrays as launched: the launch over the generated segments, the last thread state read against the final state. -/
theorem run : θ_run defs (onTc (τ := τ) (main (F := F))) ⟨m, fun _ => 0, ρ⟩ (fun r => ∀ c : Dev nD,
      r.2.mem ((c.tc : Thread nD τ).loc main_v63) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«146250_j68865505624665_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.Region0Value.lean ====
/-
  What pallas_call 0 leaves in its output array: the rows of its left operand times its right operand.

  The call runs over twenty grid points; point `t` loads rows `5000·t … 5000·t + 4999` of the left operand (all 64 columns)
  and the whole [64, 64] right operand, and stores their product — the operands rounded to bf16, which over the extended reals
  is the identity, multiplied into a zero accumulator — as rows `5000·t … 5000·t + 4999` of the output. Entry `(p, q)` of that
  block is the sum over `k` of `x (5000·t + p, k) · w (k, q)`, which is entry `(5000·t + p, q)` of `rowsTimes x w`; the twenty
  row blocks tile the 100000 rows, so the output array ends as `rowsTimes x w`, whatever the region found in it.
  Everything is stated at a parameter `V`, the buffer contents when the region is entered.
-/
import proofs.«146250_j68865505624665_1_alg».proof.Proof.Gen.KernelIdeal.Frame
import proofs.«146250_j68865505624665_1_alg».proof.Proof.LibRowsTimes
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowsTimes

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block: the sum over `k` of the products of the loaded blocks' entries. -/
theorem payload_apply (x : FVec Ideal S5000x64 .f32) (w : FVec Ideal S64x64 .f32) (p : Fin 5000) (q : Fin 64) :
    k0_pay1 (F := Ideal) x w (ix2 p q) = ∑ k : Fin 64, x (ix2 p k) * w (ix2 k q) := by
  unfold k0_pay1
  exact matmul_zero_apply dot_S5000x64_S64x64_S5000x64_1_0_0_1_n_n rfl rfl rfl rfl rfl rfl rfl rfl none _ _ p q

/-- The printed index maps over the grid: the row-block windows sit at block `t` of the rows and block 0 of the columns,
    the right operand's window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000·t …` of the array the region finds. -/
theorem lhs_block_apply (c : Dev nD) (t : Fin cfg0.N) (p : Fin 5000) (k : Fin 64) (i : S100000x64.Idx)
    (h0 : (i 0).val = t.val * 5000 + p.val) (h1 : (i 1).val = k.val) :
    (iblk0 V c 0 t : Vec Ideal S5000x64 .f32) (ix2 p k) = (V c main_arg0 : S100000x64.Idx → EReal) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 64 + 1 * k.val = (i 1).val; rw [e1, h1]; omega

/-- The right operand's block at any point is the whole array. -/
theorem rhs_block_apply (c : Dev nD) (t : Fin cfg0.N) (k : Fin 64) (q : Fin 64) (i : S64x64.Idx)
    (h0 : (i 0).val = k.val) (h1 : (i 1).val = q.val) :
    (iblk0 V c 1 t : Vec Ideal S64x64 .f32) (ix2 k q) = (V c main_arg2 : S64x64.Idx → EReal) i := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 64 + 1 * k.val = (i 0).val; rw [e2, h0]; omega
  | ⟨1, _⟩ => show win0_1.index t (1 : Fin 2) * 64 + 1 * q.val = (i 1).val; rw [e3, h1]; omega

/-- WHAT POINT `t` WRITES BACK is block `t` of `rowsTimes` of the two operand arrays as the region finds them. -/
theorem flushed_eq (c : Dev nD) (t : Fin cfg0.N) :
    (dat0 V c).flushed 2 t
      = ((cfg0.win 2).blk t).view.read (Elt Ideal) (rowsTimes (V c main_arg0 : S100000x64.Idx → EReal) (V c main_arg2 : S64x64.Idx → EReal)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := idx_facts t
  funext j
  obtain ⟨p, q, rfl⟩ : ∃ (p : Fin 5000) (q : Fin 64), j = ix2 p q := ⟨j 0, j 1, eq_ix2 j⟩
  refine (payload_apply (iblk0 V c 0 t) (iblk0 V c 1 t) p q).trans ?_
  rw [View.read_apply]
  unfold rowsTimes
  refine Finset.sum_congr rfl fun k _ => ?_
  have hp : (((cfg0.win 2).blk t).view.emb (ix2 p q) (0 : Fin 2)).val = t.val * 5000 + p.val := by
    show win0_2.index t (0 : Fin 2) * 5000 + 1 * p.val = _; rw [e4]; omega
  have hq : (((cfg0.win 2).blk t).view.emb (ix2 p q) (1 : Fin 2)).val = q.val := by
    show win0_2.index t (1 : Fin 2) * 64 + 1 * q.val = _; rw [e5]; omega
  exact congrArg₂ (· * ·) (lhs_block_apply V c t p k _ hp rfl) (rhs_block_apply V c t k q _ rfl hq)

/-- An index of the output array is in point `t`'s block iff its row is among the block's 5000 rows. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row of the output is in the block of the point `row / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  obtain ⟨-, -, -, -, e4, e5⟩ := idx_facts ⟨(i 0).val / 5000, by rw [hN]; omega⟩
  rw [mem_blk]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- THE OUTPUT ARRAY after the region: the rows of the left operand times the right operand. -/
theorem final (c : Dev nD) :
    (dat0 V c).arrAt 2 cfg0.N = rowsTimes (V c main_arg0 : S100000x64.Idx → EReal) (V c main_arg2 : S64x64.Idx → EReal) :=
  (dat0 V c).arrAt_eq_of_cover 2 _ (fun t _ => flushed_eq V c t) cover

end Cert.KernelIdeal.Region0

end
-- ==== Proof.Region1Value.lean ====
/-
  What pallas_call 1 leaves in its output array: the rows of its left operand times its right operand.

  The call runs over twenty grid points; point `t` loads rows `5000·t … 5000·t + 4999` of the left operand (all 64 columns)
  and the whole [64, 32] right operand, and stores their product — the operands rounded to bf16, which over the extended reals
  is the identity, multiplied into a zero accumulator — as rows `5000·t … 5000·t + 4999` of the output. Entry `(p, q)` of that
  block is the sum over `k` of `x (5000·t + p, k) · w (k, q)`, which is entry `(5000·t + p, q)` of `rowsTimes x w`; the twenty
  row blocks tile the 100000 rows, so the output array ends as `rowsTimes x w`, whatever the region found in it.
  Everything is stated at a parameter `V`, the buffer contents when the region is entered.
-/
import proofs.«146250_j68865505624665_1_alg».proof.Proof.Gen.KernelIdeal.Frame
import proofs.«146250_j68865505624665_1_alg».proof.Proof.LibRowsTimes
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowsTimes

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry of the block: the sum over `k` of the products of the loaded blocks' entries. -/
theorem payload_apply (x : FVec Ideal S5000x64 .f32) (w : FVec Ideal S64x32 .f32) (p : Fin 5000) (q : Fin 32) :
    k1_pay1 (F := Ideal) x w (ix2 p q) = ∑ k : Fin 64, x (ix2 p k) * w (ix2 k q) := by
  unfold k1_pay1
  rw [shapeCast_self]
  exact matmul_zero_apply dot_S5000x64_S64x32_S5000x32_1_0_0_1_n_n rfl rfl rfl rfl rfl rfl rfl rfl none _ _ p q

/-- The printed index maps over the grid: the row-block windows sit at block `t` of the rows and block 0 of the columns,
    the right operand's window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `5000·t …` of the array the region finds. -/
theorem lhs_block_apply (c : Dev nD) (t : Fin cfg1.N) (p : Fin 5000) (k : Fin 64) (i : S100000x64.Idx)
    (h0 : (i 0).val = t.val * 5000 + p.val) (h1 : (i 1).val = k.val) :
    (iblk1 V c 0 t : Vec Ideal S5000x64 .f32) (ix2 p k) = (V c main_v46 : S100000x64.Idx → EReal) i := by
  obtain ⟨e0, e1, -, -, -, -⟩ := idx_facts t
  unfold iblk1
  rw [View.read_apply]
  show V c main_v46 _ = V c main_v46 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 64 + 1 * k.val = (i 1).val; rw [e1, h1]; omega

/-- The right operand's block at any point is the whole array. -/
theorem rhs_block_apply (c : Dev nD) (t : Fin cfg1.N) (k : Fin 64) (q : Fin 32) (i : S64x32.Idx)
    (h0 : (i 0).val = k.val) (h1 : (i 1).val = q.val) :
    (iblk1 V c 1 t : Vec Ideal S64x32 .f32) (ix2 k q) = (V c main_arg4 : S64x32.Idx → EReal) i := by
  obtain ⟨-, -, e2, e3, -, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * k.val = (i 0).val; rw [e2, h0]; omega
  | ⟨1, _⟩ => show win1_1.index t (1 : Fin 2) * 32 + 1 * q.val = (i 1).val; rw [e3, h1]; omega

/-- WHAT POINT `t` WRITES BACK is block `t` of `rowsTimes` of the two operand arrays as the region finds them. -/
theorem flushed_eq (c : Dev nD) (t : Fin cfg1.N) :
    (dat1 V c).flushed 2 t
      = ((cfg1.win 2).blk t).view.read (Elt Ideal) (rowsTimes (V c main_v46 : S100000x64.Idx → EReal) (V c main_arg4 : S64x32.Idx → EReal)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  obtain ⟨-, -, -, -, e4, e5⟩ := idx_facts t
  funext j
  obtain ⟨p, q, rfl⟩ : ∃ (p : Fin 5000) (q : Fin 32), j = ix2 p q := ⟨j 0, j 1, eq_ix2 j⟩
  refine (payload_apply (iblk1 V c 0 t) (iblk1 V c 1 t) p q).trans ?_
  rw [View.read_apply]
  unfold rowsTimes
  refine Finset.sum_congr rfl fun k _ => ?_
  have hp : (((cfg1.win 2).blk t).view.emb (ix2 p q) (0 : Fin 2)).val = t.val * 5000 + p.val := by
    show win1_2.index t (0 : Fin 2) * 5000 + 1 * p.val = _; rw [e4]; omega
  have hq : (((cfg1.win 2).blk t).view.emb (ix2 p q) (1 : Fin 2)).val = q.val := by
    show win1_2.index t (1 : Fin 2) * 32 + 1 * q.val = _; rw [e5]; omega
  exact congrArg₂ (· * ·) (lhs_block_apply V c t p k _ hp rfl) (rhs_block_apply V c t k q _ rfl hq)

/-- An index of the output array is in point `t`'s block iff its row is among the block's 5000 rows. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v47).slice (win1_2.rect t)).set ↔ _
  rw [View.set_slice_whole, Rect.mem_set_unit]
  exact Iff.rfl

/-- Every row of the output is in the block of the point `row / 5000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_2 _, ?_⟩
  obtain ⟨-, -, -, -, e4, e5⟩ := idx_facts ⟨(i 0).val / 5000, by rw [hN]; omega⟩
  rw [mem_blk]
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 32 ≤ (i 1).val ∧ (i 1).val < win1_2.index _ (1 : Fin 2) * 32 + 32; rw [e5]; omega

/-- THE OUTPUT ARRAY after the region: the rows of the left operand times the right operand. -/
theorem final (c : Dev nD) :
    (dat1 V c).arrAt 2 cfg1.N = rowsTimes (V c main_v46 : S100000x64.Idx → EReal) (V c main_arg4 : S64x32.Idx → EReal) :=
  (dat1 V c).arrAt_eq_of_cover 2 _ (fun t _ => flushed_eq V c t) cover

end Cert.KernelIdeal.Region1

end
-- ==== Proof.StretchDefs.lean ====
/-
  The two programs side by side: shared vocabulary.

  The idealized kernel's @main and the reference's @main are the same eighty host operations, line for line, except that
  where the reference has a `dot_general` the kernel launches a pallas_call. Both are folded through their buffer contents
  (`StableHlo.after`), so the comparison goes stretch by stretch: if the buffers a stretch reads hold the same values in
  the two programs, so do the buffers it writes, the operations being the same pure functions. Here: the reference's
  operation list cut into the kernel's stretches (`rA … rE`, the two `dot_general`s `rP` and `rQ` between them), and for
  each boundary the statement that the buffers later stretches read agree (`Ag0 … Ag6`).
-/
import proofs.«146250_j68865505624665_1_alg».proof.Proof.Gen.KernelIdeal.Frame
import proofs.«146250_j68865505624665_1_alg».proof.Proof.RefOps
import Idealize.ShloMosaic.Lib.StableHlo.Run

set_option maxRecDepth 16384

noncomputable section

namespace Cert.Lockstep

open Idealize.ShloMosaic Idealize.ShloMosaic.TcCoe Idealize.SL.Sem Idealize.ShloMosaic.StableHlo

variable {F : FTy → Type} [FloatOps F]

/-- Buffer contents of the kernel's program and of the reference's. -/
abbrev KV (F : FTy → Type) := Valuation Cert.KernelIdeal.τ Cert.KernelIdeal.sig (Elt F)
abbrev RV (F : FTy → Type) := Valuation Cert.ReferenceIdeal.τ Cert.ReferenceIdeal.sig (Elt F)

notation "k⟪" b "⟫" => (Proc.devRef (τ := Cert.KernelIdeal.τ) (sig := Cert.KernelIdeal.sig) Proc.tc b)
notation "r⟪" b "⟫" => (Proc.devRef (τ := Cert.ReferenceIdeal.τ) (sig := Cert.ReferenceIdeal.sig) Proc.tc b)

/-! ## The reference's operations, cut where the kernel's stretches are cut -/

/-- Operations 1–18: the edge lists with self loops, the in-degree, its mask and reciprocal square root. -/
abbrev rA : List (HloOp Cert.ReferenceIdeal.τ Cert.ReferenceIdeal.sig (Elt F)) := Cert.ReferenceIdeal.ValueP.ops.take 18
/-- Operations 19–21: `jnp.where`. -/
abbrev rB : List (HloOp Cert.ReferenceIdeal.τ Cert.ReferenceIdeal.sig (Elt F)) := (Cert.ReferenceIdeal.ValueP.ops.drop 18).take 3
/-- Operations 22–40: the edge weights. -/
abbrev rC : List (HloOp Cert.ReferenceIdeal.τ Cert.ReferenceIdeal.sig (Elt F)) := (Cert.ReferenceIdeal.ValueP.ops.drop 21).take 19
/-- Operation 41: `x · W1`. -/
abbrev rP : List (HloOp Cert.ReferenceIdeal.τ Cert.ReferenceIdeal.sig (Elt F)) := (Cert.ReferenceIdeal.ValueP.ops.drop 40).take 1
/-- Operations 42–60: the first layer's gather, scale, scatter-add and bias. -/
abbrev rD : List (HloOp Cert.ReferenceIdeal.τ Cert.ReferenceIdeal.sig (Elt F)) := (Cert.ReferenceIdeal.ValueP.ops.drop 41).take 19
/-- Operation 61: `h · W2`. -/
abbrev rQ : List (HloOp Cert.ReferenceIdeal.τ Cert.ReferenceIdeal.sig (Elt F)) := (Cert.ReferenceIdeal.ValueP.ops.drop 60).take 1
/-- Operations 62–80: the second layer's gather, scale, scatter-add and bias. -/
abbrev rE : List (HloOp Cert.ReferenceIdeal.τ Cert.ReferenceIdeal.sig (Elt F)) := Cert.ReferenceIdeal.ValueP.ops.drop 61

/-- The pieces, in order, are the whole list. -/
theorem ops_split : (Cert.ReferenceIdeal.ValueP.ops : List (HloOp Cert.ReferenceIdeal.τ Cert.ReferenceIdeal.sig (Elt F)))
    = rA ++ (rB ++ (rC ++ (rP ++ (rD ++ (rQ ++ rE))))) := rfl

/-- Folding two lines one after the other is folding their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The reference's fold, stretch by stretch. -/
theorem after_ops (V' : RV F) :
    after Cert.ReferenceIdeal.ValueP.ops V' = after rE (after rQ (after rD (after rP (after rC (after rB (after rA V')))))) := by
  rw [ops_split, after_append, after_append, after_append, after_append, after_append, after_append]

/-- What is left of a fold read at a buffer once the one-pass reading has stopped under a `concatenate`'s list of
    operands: the remaining operations' results, outermost first. -/
macro "peel_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## Agreement at each boundary: the buffers later stretches read hold the same values in both programs -/

/-- At launch: the two programs' argument arrays hold the same values. -/
structure Ag0 (V : KV F) (V' : RV F) : Prop where
  a0 : V k⟪Cert.KernelIdeal.main_arg0⟫ = V' r⟪Cert.ReferenceIdeal.main_arg0⟫
  a1 : V k⟪Cert.KernelIdeal.main_arg1⟫ = V' r⟪Cert.ReferenceIdeal.main_arg1⟫
  a2 : V k⟪Cert.KernelIdeal.main_arg2⟫ = V' r⟪Cert.ReferenceIdeal.main_arg2⟫
  a3 : V k⟪Cert.KernelIdeal.main_arg3⟫ = V' r⟪Cert.ReferenceIdeal.main_arg3⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After the first stretch (source and destination lists with self loops, the in-degree, its positivity mask and reciprocal square root). -/
structure Ag1 (V : KV F) (V' : RV F) : Prop where
  v3 : V k⟪Cert.KernelIdeal.main_v3⟫ = V' r⟪Cert.ReferenceIdeal.main_v3⟫
  v6 : V k⟪Cert.KernelIdeal.main_v6⟫ = V' r⟪Cert.ReferenceIdeal.main_v6⟫
  v12 : V k⟪Cert.KernelIdeal.main_v12⟫ = V' r⟪Cert.ReferenceIdeal.main_v12⟫
  v13 : V k⟪Cert.KernelIdeal.main_v13⟫ = V' r⟪Cert.ReferenceIdeal.main_v13⟫
  cst2 : V k⟪Cert.KernelIdeal.main_cst_2⟫ = V' r⟪Cert.ReferenceIdeal.main_cst_2⟫
  a0 : V k⟪Cert.KernelIdeal.main_arg0⟫ = V' r⟪Cert.ReferenceIdeal.main_arg0⟫
  a2 : V k⟪Cert.KernelIdeal.main_arg2⟫ = V' r⟪Cert.ReferenceIdeal.main_arg2⟫
  a3 : V k⟪Cert.KernelIdeal.main_arg3⟫ = V' r⟪Cert.ReferenceIdeal.main_arg3⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After `jnp.where`: the normalising factor per node. -/
structure Ag2 (V : KV F) (V' : RV F) : Prop where
  v14 : V k⟪Cert.KernelIdeal.main_v14⟫ = V' r⟪Cert.ReferenceIdeal.main_v14⟫
  v3 : V k⟪Cert.KernelIdeal.main_v3⟫ = V' r⟪Cert.ReferenceIdeal.main_v3⟫
  v6 : V k⟪Cert.KernelIdeal.main_v6⟫ = V' r⟪Cert.ReferenceIdeal.main_v6⟫
  a0 : V k⟪Cert.KernelIdeal.main_arg0⟫ = V' r⟪Cert.ReferenceIdeal.main_arg0⟫
  a2 : V k⟪Cert.KernelIdeal.main_arg2⟫ = V' r⟪Cert.ReferenceIdeal.main_arg2⟫
  a3 : V k⟪Cert.KernelIdeal.main_arg3⟫ = V' r⟪Cert.ReferenceIdeal.main_arg3⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After the edge weights `dinv[src] * dinv[dst]`. -/
structure Ag3 (V : KV F) (V' : RV F) : Prop where
  v29 : V k⟪Cert.KernelIdeal.main_v29⟫ = V' r⟪Cert.ReferenceIdeal.main_v29⟫
  v3 : V k⟪Cert.KernelIdeal.main_v3⟫ = V' r⟪Cert.ReferenceIdeal.main_v3⟫
  v6 : V k⟪Cert.KernelIdeal.main_v6⟫ = V' r⟪Cert.ReferenceIdeal.main_v6⟫
  a0 : V k⟪Cert.KernelIdeal.main_arg0⟫ = V' r⟪Cert.ReferenceIdeal.main_arg0⟫
  a2 : V k⟪Cert.KernelIdeal.main_arg2⟫ = V' r⟪Cert.ReferenceIdeal.main_arg2⟫
  a3 : V k⟪Cert.KernelIdeal.main_arg3⟫ = V' r⟪Cert.ReferenceIdeal.main_arg3⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After the first product `x · W1`. -/
structure Ag4 (V : KV F) (V' : RV F) : Prop where
  v30 : V k⟪Cert.KernelIdeal.main_v30⟫ = V' r⟪Cert.ReferenceIdeal.main_v30⟫
  v29 : V k⟪Cert.KernelIdeal.main_v29⟫ = V' r⟪Cert.ReferenceIdeal.main_v29⟫
  v3 : V k⟪Cert.KernelIdeal.main_v3⟫ = V' r⟪Cert.ReferenceIdeal.main_v3⟫
  v6 : V k⟪Cert.KernelIdeal.main_v6⟫ = V' r⟪Cert.ReferenceIdeal.main_v6⟫
  a3 : V k⟪Cert.KernelIdeal.main_arg3⟫ = V' r⟪Cert.ReferenceIdeal.main_arg3⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After the first layer's gather, scale, scatter-add and bias. -/
structure Ag5 (V : KV F) (V' : RV F) : Prop where
  v46 : V k⟪Cert.KernelIdeal.main_v46⟫ = V' r⟪Cert.ReferenceIdeal.main_v46⟫
  v29 : V k⟪Cert.KernelIdeal.main_v29⟫ = V' r⟪Cert.ReferenceIdeal.main_v29⟫
  v3 : V k⟪Cert.KernelIdeal.main_v3⟫ = V' r⟪Cert.ReferenceIdeal.main_v3⟫
  v6 : V k⟪Cert.KernelIdeal.main_v6⟫ = V' r⟪Cert.ReferenceIdeal.main_v6⟫
  a4 : V k⟪Cert.KernelIdeal.main_arg4⟫ = V' r⟪Cert.ReferenceIdeal.main_arg4⟫
  a5 : V k⟪Cert.KernelIdeal.main_arg5⟫ = V' r⟪Cert.ReferenceIdeal.main_arg5⟫

/-- After the second product `h · W2`. -/
structure Ag6 (V : KV F) (V' : RV F) : Prop where
  v47 : V k⟪Cert.KernelIdeal.main_v47⟫ = V' r⟪Cert.ReferenceIdeal.main_v47⟫
  v29 : V k⟪Cert.KernelIdeal.main_v29⟫ = V' r⟪Cert.ReferenceIdeal.main_v29⟫
  v3 : V k⟪Cert.KernelIdeal.main_v3⟫ = V' r⟪Cert.ReferenceIdeal.main_v3⟫
  v6 : V k⟪Cert.KernelIdeal.main_v6⟫ = V' r⟪Cert.ReferenceIdeal.main_v6⟫
  a5 : V k⟪Cert.KernelIdeal.main_arg5⟫ = V' r⟪Cert.ReferenceIdeal.main_arg5⟫

end Cert.Lockstep

end
-- ==== Proof.StretchA.lean ====
/-
  The first stretch, side by side: the edge lists, the in-degree, its mask and its reciprocal square root.
  Both programs slice the two rows of `edge_index`, append the self loops `0 … N-1`, scatter-add ones at the destinations,
  compare the sums with zero and take their reciprocal square roots: the same operations of `edge_index`, so the same values.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

set_option maxHeartbeats 4000000 in
theorem stepA {V : KV F} {V' : RV F} (h : Ag0 V V') :
    Ag1 (after Cert.KernelIdeal.Gen.hostOps0 V) (after rA V') where
  v3 := by
    show after [_, _, _, _, _, _, _, _, _, _, _, _, _, _, _, _, _, _] V k⟪Cert.KernelIdeal.main_v3⟫ = after [_, _, _, _, _, _, _, _, _, _, _, _, _, _, _, _, _, _] V' r⟪Cert.ReferenceIdeal.main_v3⟫
    after_results_simp
    peel_results
    rw [h.a1]
    all_goals rfl
  v6 := by
    show after [_, _, _, _, _, _, _, _, _, _, _, _, _, _, _, _, _, _] V k⟪Cert.KernelIdeal.main_v6⟫ = after [_, _, _, _, _, _, _, _, _, _, _, _, _, _, _, _, _, _] V' r⟪Cert.ReferenceIdeal.main_v6⟫
    after_results_simp
    peel_results
    rw [h.a1]
    all_goals rfl
  v12 := by
    show after [_, _, _, _, _, _, _, _, _, _, _, _, _, _, _, _, _, _] V k⟪Cert.KernelIdeal.main_v12⟫ = after [_, _, _, _, _, _, _, _, _, _, _, _, _, _, _, _, _, _] V' r⟪Cert.ReferenceIdeal.main_v12⟫
    after_results_simp
    peel_results
    rw [h.a1]
    all_goals rfl
  v13 := by
    show after [_, _, _, _, _, _, _, _, _, _, _, _, _, _, _, _, _, _] V k⟪Cert.KernelIdeal.main_v13⟫ = after [_, _, _, _, _, _, _, _, _, _, _, _, _, _, _, _, _, _] V' r⟪Cert.ReferenceIdeal.main_v13⟫
    after_results_simp
    peel_results
    rw [h.a1]
    all_goals rfl
  cst2 := by
    show after [_, _, _, _, _, _, _, _, _, _, _, _, _, _, _, _, _, _] V k⟪Cert.KernelIdeal.main_cst_2⟫ = after [_, _, _, _, _, _, _, _, _, _, _, _, _, _, _, _, _, _] V' r⟪Cert.ReferenceIdeal.main_cst_2⟫
    after_results_simp
    peel_results
    all_goals rfl
  a0 := by
    show after [_, _, _, _, _, _, _, _, _, _, _, _, _, _, _, _, _, _] V k⟪Cert.KernelIdeal.main_arg0⟫ = after [_, _, _, _, _, _, _, _, _, _, _, _, _, _, _, _, _, _] V' r⟪Cert.ReferenceIdeal.main_arg0⟫
    after_results_simp
    exact h.a0
  a2 := by
    show after [_, _, _, _, _, _, _, _, _, _, _, _, _, _, _, _, _, _] V k⟪Cert.KernelIdeal.main_arg2⟫ = after [_, _, _, _, _, _, _, _, _, _, _, _, _, _, _, _, _, _] V' r⟪Cert.ReferenceIdeal.main_arg2⟫
    after_results_simp
    exact h.a2
  a3 := by
    show after [_, _, _, _, _, _, _, _, _, _, _, _, _, _, _, _, _, _] V k⟪Cert.KernelIdeal.main_arg3⟫ = after [_, _, _, _, _, _, _, _, _, _, _, _, _, _, _, _, _, _] V' r⟪Cert.ReferenceIdeal.main_arg3⟫
    after_results_simp
    exact h.a3
  a4 := by
    show after [_, _, _, _, _, _, _, _, _, _, _, _, _, _, _, _, _, _] V k⟪Cert.KernelIdeal.main_arg4⟫ = after [_, _, _, _, _, _, _, _, _, _, _, _, _, _, _, _, _, _] V' r⟪Cert.ReferenceIdeal.main_arg4⟫
    after_results_simp
    exact h.a4
  a5 := by
    show after [_, _, _, _, _, _, _, _, _, _, _, _, _, _, _, _, _, _] V k⟪Cert.KernelIdeal.main_arg5⟫ = after [_, _, _, _, _, _, _, _, _, _, _, _, _, _, _, _, _, _] V' r⟪Cert.ReferenceIdeal.main_arg5⟫
    after_results_simp
    exact h.a5

end Cert.Lockstep

end
-- ==== Proof.StretchB.lean ====
/-
  `jnp.where(deg > 0, rsqrt(deg), 0)`, side by side.
  The outlined `_where` selects, node by node, between the reciprocal square root and a broadcast zero by the mask: the same
  function of the same mask, root and zero in both programs.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

set_option maxHeartbeats 4000000 in
theorem stepB {V : KV F} {V' : RV F} (h : Ag1 V V') :
    Ag2 (after Cert.KernelIdeal.Gen.hostOps0_1 V) (after rB V') where
  v14 := by
    show after [_, _, _] V k⟪Cert.KernelIdeal.main_v14⟫ = after [_, _, _] V' r⟪Cert.ReferenceIdeal.main_v14⟫
    after_results_simp
    rw [h.v12, h.v13, h.cst2]
    all_goals rfl
  v3 := by
    show after [_, _, _] V k⟪Cert.KernelIdeal.main_v3⟫ = after [_, _, _] V' r⟪Cert.ReferenceIdeal.main_v3⟫
    after_results_simp
    exact h.v3
  v6 := by
    show after [_, _, _] V k⟪Cert.KernelIdeal.main_v6⟫ = after [_, _, _] V' r⟪Cert.ReferenceIdeal.main_v6⟫
    after_results_simp
    exact h.v6
  a0 := by
    show after [_, _, _] V k⟪Cert.KernelIdeal.main_arg0⟫ = after [_, _, _] V' r⟪Cert.ReferenceIdeal.main_arg0⟫
    after_results_simp
    exact h.a0
  a2 := by
    show after [_, _, _] V k⟪Cert.KernelIdeal.main_arg2⟫ = after [_, _, _] V' r⟪Cert.ReferenceIdeal.main_arg2⟫
    after_results_simp
    exact h.a2
  a3 := by
    show after [_, _, _] V k⟪Cert.KernelIdeal.main_arg3⟫ = after [_, _, _] V' r⟪Cert.ReferenceIdeal.main_arg3⟫
    after_results_simp
    exact h.a3
  a4 := by
    show after [_, _, _] V k⟪Cert.KernelIdeal.main_arg4⟫ = after [_, _, _] V' r⟪Cert.ReferenceIdeal.main_arg4⟫
    after_results_simp
    exact h.a4
  a5 := by
    show after [_, _, _] V k⟪Cert.KernelIdeal.main_arg5⟫ = after [_, _, _] V' r⟪Cert.ReferenceIdeal.main_arg5⟫
    after_results_simp
    exact h.a5

end Cert.Lockstep

end
-- ==== Proof.StretchC.lean ====
/-
  The edge weights `dinv[src] * dinv[dst]`, side by side.
  Both programs wrap negative indices, gather the node factors at the sources and at the destinations and multiply them
  edge by edge: the same function of the factors and of the two edge lists.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

set_option maxHeartbeats 4000000 in
theorem stepC {V : KV F} {V' : RV F} (h : Ag2 V V') :
    Ag3 (after Cert.KernelIdeal.Gen.hostOps0_2 V) (after rC V') where
  v29 := by
    show after [_, _, _, _, _, _, _, _, _, _, _, _, _, _, _, _, _, _, _] V k⟪Cert.KernelIdeal.main_v29⟫ = after [_, _, _, _, _, _, _, _, _, _, _, _, _, _, _, _, _, _, _] V' r⟪Cert.ReferenceIdeal.main_v29⟫
    after_results_simp
    rw [h.v14, h.v3, h.v6]
    all_goals rfl
  v3 := by
    show after [_, _, _, _, _, _, _, _, _, _, _, _, _, _, _, _, _, _, _] V k⟪Cert.KernelIdeal.main_v3⟫ = after [_, _, _, _, _, _, _, _, _, _, _, _, _, _, _, _, _, _, _] V' r⟪Cert.ReferenceIdeal.main_v3⟫
    after_results_simp
    exact h.v3
  v6 := by
    show after [_, _, _, _, _, _, _, _, _, _, _, _, _, _, _, _, _, _, _] V k⟪Cert.KernelIdeal.main_v6⟫ = after [_, _, _, _, _, _, _, _, _, _, _, _, _, _, _, _, _, _, _] V' r⟪Cert.ReferenceIdeal.main_v6⟫
    after_results_simp
    exact h.v6
  a0 := by
    show after [_, _, _, _, _, _, _, _, _, _, _, _, _, _, _, _, _, _, _] V k⟪Cert.KernelIdeal.main_arg0⟫ = after [_, _, _, _, _, _, _, _, _, _, _, _, _, _, _, _, _, _, _] V' r⟪Cert.ReferenceIdeal.main_arg0⟫
    after_results_simp
    exact h.a0
  a2 := by
    show after [_, _, _, _, _, _, _, _, _, _, _, _, _, _, _, _, _, _, _] V k⟪Cert.KernelIdeal.main_arg2⟫ = after [_, _, _, _, _, _, _, _, _, _, _, _, _, _, _, _, _, _, _] V' r⟪Cert.ReferenceIdeal.main_arg2⟫
    after_results_simp
    exact h.a2
  a3 := by
    show after [_, _, _, _, _, _, _, _, _, _, _, _, _, _, _, _, _, _, _] V k⟪Cert.KernelIdeal.main_arg3⟫ = after [_, _, _, _, _, _, _, _, _, _, _, _, _, _, _, _, _, _, _] V' r⟪Cert.ReferenceIdeal.main_arg3⟫
    after_results_simp
    exact h.a3
  a4 := by
    show after [_, _, _, _, _, _, _, _, _, _, _, _, _, _, _, _, _, _, _] V k⟪Cert.KernelIdeal.main_arg4⟫ = after [_, _, _, _, _, _, _, _, _, _, _, _, _, _, _, _, _, _, _] V' r⟪Cert.ReferenceIdeal.main_arg4⟫
    after_results_simp
    exact h.a4
  a5 := by
    show after [_, _, _, _, _, _, _, _, _, _, _, _, _, _, _, _, _, _, _] V k⟪Cert.KernelIdeal.main_arg5⟫ = after [_, _, _, _, _, _, _, _, _, _, _, _, _, _, _, _, _, _, _] V' r⟪Cert.ReferenceIdeal.main_arg5⟫
    after_results_simp
    exact h.a5

end Cert.Lockstep

end
-- ==== Proof.StretchD.lean ====
/-
  The first layer after its product, side by side: gather at the sources, scale by the edge weights, scatter-add at the destinations, add the bias.
  Given the same product `x · W1`, edge lists, edge weights and bias, both programs compute the same hidden layer.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

set_option maxHeartbeats 4000000 in
theorem stepD {V : KV F} {V' : RV F} (h : Ag4 V V') :
    Ag5 (after Cert.KernelIdeal.Gen.hostOps1 V) (after rD V') where
  v46 := by
    show after [_, _, _, _, _, _, _, _, _, _, _, _, _, _, _, _, _, _, _] V k⟪Cert.KernelIdeal.main_v46⟫ = after [_, _, _, _, _, _, _, _, _, _, _, _, _, _, _, _, _, _, _] V' r⟪Cert.ReferenceIdeal.main_v46⟫
    after_results_simp
    rw [h.v30, h.v3, h.v6, h.v29, h.a3]
    all_goals rfl
  v29 := by
    show after [_, _, _, _, _, _, _, _, _, _, _, _, _, _, _, _, _, _, _] V k⟪Cert.KernelIdeal.main_v29⟫ = after [_, _, _, _, _, _, _, _, _, _, _, _, _, _, _, _, _, _, _] V' r⟪Cert.ReferenceIdeal.main_v29⟫
    after_results_simp
    exact h.v29
  v3 := by
    show after [_, _, _, _, _, _, _, _, _, _, _, _, _, _, _, _, _, _, _] V k⟪Cert.KernelIdeal.main_v3⟫ = after [_, _, _, _, _, _, _, _, _, _, _, _, _, _, _, _, _, _, _] V' r⟪Cert.ReferenceIdeal.main_v3⟫
    after_results_simp
    exact h.v3
  v6 := by
    show after [_, _, _, _, _, _, _, _, _, _, _, _, _, _, _, _, _, _, _] V k⟪Cert.KernelIdeal.main_v6⟫ = after [_, _, _, _, _, _, _, _, _, _, _, _, _, _, _, _, _, _, _] V' r⟪Cert.ReferenceIdeal.main_v6⟫
    after_results_simp
    exact h.v6
  a4 := by
    show after [_, _, _, _, _, _, _, _, _, _, _, _, _, _, _, _, _, _, _] V k⟪Cert.KernelIdeal.main_arg4⟫ = after [_, _, _, _, _, _, _, _, _, _, _, _, _, _, _, _, _, _, _] V' r⟪Cert.ReferenceIdeal.main_arg4⟫
    after_results_simp
    exact h.a4
  a5 := by
    show after [_, _, _, _, _, _, _, _, _, _, _, _, _, _, _, _, _, _, _] V k⟪Cert.KernelIdeal.main_arg5⟫ = after [_, _, _, _, _, _, _, _, _, _, _, _, _, _, _, _, _, _, _] V' r⟪Cert.ReferenceIdeal.main_arg5⟫
    after_results_simp
    exact h.a5

end Cert.Lockstep

end
-- ==== Proof.StretchE.lean ====
/-
  The second layer after its product, side by side: gather at the sources, scale by the edge weights, scatter-add at the
  destinations, add the bias — the result of @main.
  Given the same product `h · W2`, edge lists, edge weights and bias, both programs return the same array.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

set_option maxHeartbeats 4000000 in
theorem stepE {V : KV F} {V' : RV F} (h : Ag6 V V') :
    after Cert.KernelIdeal.Gen.hostOps2 V k⟪Cert.KernelIdeal.main_v63⟫ = after rE V' r⟪Cert.ReferenceIdeal.main_v63⟫ := by
  show after [_, _, _, _, _, _, _, _, _, _, _, _, _, _, _, _, _, _, _] V k⟪Cert.KernelIdeal.main_v63⟫ = after [_, _, _, _, _, _, _, _, _, _, _, _, _, _, _, _, _, _, _] V' r⟪Cert.ReferenceIdeal.main_v63⟫
  after_results_simp
  rw [h.v47, h.v3, h.v6, h.v29, h.a5]
  all_goals rfl

end Cert.Lockstep

end
-- ==== Proof.StretchPQ.lean ====
/-
  The reference's two `dot_general`s, each one operation of its fold: it writes the product of two buffers into its result
  buffer and leaves every other buffer as it was.
-/
import proofs.«146250_j68865505624665_1_alg».proof.Proof.StretchDefs

set_option maxRecDepth 16384

noncomputable section

namespace Cert.Lockstep

open Idealize.ShloMosaic Idealize.ShloMosaic.TcCoe Idealize.SL.Sem Idealize.ShloMosaic.StableHlo

variable {F : FTy → Type} [FloatOps F]

/-- `x · W1`: the result buffer holds the host product of the first and third arguments. -/
theorem rP_v30 (V' : RV F) : after rP V' r⟪Cert.ReferenceIdeal.main_v30⟫
    = Host.dotGeneral Cert.ReferenceIdeal.dot_S100000x64_S64x64_S100000x64_1_0_0_1_n_n none (V' r⟪Cert.ReferenceIdeal.main_arg0⟫) (V' r⟪Cert.ReferenceIdeal.main_arg2⟫) := by
  show after [_] V' r⟪Cert.ReferenceIdeal.main_v30⟫ = _
  after_results_simp

theorem rP_v29 (V' : RV F) : after rP V' r⟪Cert.ReferenceIdeal.main_v29⟫ = V' r⟪Cert.ReferenceIdeal.main_v29⟫ := by
  show after [_] V' r⟪Cert.ReferenceIdeal.main_v29⟫ = _
  after_results_simp

theorem rP_v3 (V' : RV F) : after rP V' r⟪Cert.ReferenceIdeal.main_v3⟫ = V' r⟪Cert.ReferenceIdeal.main_v3⟫ := by
  show after [_] V' r⟪Cert.ReferenceIdeal.main_v3⟫ = _
  after_results_simp

theorem rP_v6 (V' : RV F) : after rP V' r⟪Cert.ReferenceIdeal.main_v6⟫ = V' r⟪Cert.ReferenceIdeal.main_v6⟫ := by
  show after [_] V' r⟪Cert.ReferenceIdeal.main_v6⟫ = _
  after_results_simp

theorem rP_a3 (V' : RV F) : after rP V' r⟪Cert.ReferenceIdeal.main_arg3⟫ = V' r⟪Cert.ReferenceIdeal.main_arg3⟫ := by
  show after [_] V' r⟪Cert.ReferenceIdeal.main_arg3⟫ = _
  after_results_simp

theorem rP_a4 (V' : RV F) : after rP V' r⟪Cert.ReferenceIdeal.main_arg4⟫ = V' r⟪Cert.ReferenceIdeal.main_arg4⟫ := by
  show after [_] V' r⟪Cert.ReferenceIdeal.main_arg4⟫ = _
  after_results_simp

theorem rP_a5 (V' : RV F) : after rP V' r⟪Cert.ReferenceIdeal.main_arg5⟫ = V' r⟪Cert.ReferenceIdeal.main_arg5⟫ := by
  show after [_] V' r⟪Cert.ReferenceIdeal.main_arg5⟫ = _
  after_results_simp

/-- `h · W2`: the result buffer holds the host product of the hidden layer and the fifth argument. -/
theorem rQ_v47 (V' : RV F) : after rQ V' r⟪Cert.ReferenceIdeal.main_v47⟫
    = Host.dotGeneral Cert.ReferenceIdeal.dot_S100000x64_S64x32_S100000x32_1_0_0_1_n_n none (V' r⟪Cert.ReferenceIdeal.main_v46⟫) (V' r⟪Cert.ReferenceIdeal.main_arg4⟫) := by
  show after [_] V' r⟪Cert.ReferenceIdeal.main_v47⟫ = _
  after_results_simp

theorem rQ_v29 (V' : RV F) : after rQ V' r⟪Cert.ReferenceIdeal.main_v29⟫ = V' r⟪Cert.ReferenceIdeal.main_v29⟫ := by
  show after [_] V' r⟪Cert.ReferenceIdeal.main_v29⟫ = _
  after_results_simp

theorem rQ_v3 (V' : RV F) : after rQ V' r⟪Cert.ReferenceIdeal.main_v3⟫ = V' r⟪Cert.ReferenceIdeal.main_v3⟫ := by
  show after [_] V' r⟪Cert.ReferenceIdeal.main_v3⟫ = _
  after_results_simp

theorem rQ_v6 (V' : RV F) : after rQ V' r⟪Cert.ReferenceIdeal.main_v6⟫ = V' r⟪Cert.ReferenceIdeal.main_v6⟫ := by
  show after [_] V' r⟪Cert.ReferenceIdeal.main_v6⟫ = _
  after_results_simp

theorem rQ_a5 (V' : RV F) : after rQ V' r⟪Cert.ReferenceIdeal.main_arg5⟫ = V' r⟪Cert.ReferenceIdeal.main_arg5⟫ := by
  show after [_] V' r⟪Cert.ReferenceIdeal.main_arg5⟫ = _
  after_results_simp

end Cert.Lockstep

end
-- ==== Proof.Bridge.lean ====
/-
  The reference's result is the idealized kernel's result.

  Boundary by boundary through the two @mains: at launch the argument arrays agree; the three stretches before the first
  product compute the same edge lists and edge weights (`stepA`, `stepB`, `stepC`); the kernel's first pallas_call leaves
  `rowsTimes x W1` in its output array (`Region0.final`) and the reference's `dot_general` of the same two arrays is that
  function too (`hostDot_eq`); the first layer's tail computes the same hidden layer (`stepD`); the second pallas_call and
  the second `dot_general` both leave `rowsTimes h W2`; the last stretch returns the same array (`stepE`). No step uses that
  the inputs are finite: each pairs the same operations on equal operands, and the two products are the same sums.
-/
import proofs.«146250_j68865505624665_1_alg».proof.Proof.KernelRun
import proofs.«146250_j68865505624665_1_alg».proof.Proof.Region0Value
import proofs.«146250_j68865505624665_1_alg».proof.Proof.Region1Value
import proofs.«146250_j68865505624665_1_alg».proof.Proof.StretchA
import proofs.«146250_j68865505624665_1_alg».proof.Proof.StretchB
import proofs.«146250_j68865505624665_1_alg».proof.Proof.StretchC
import proofs.«146250_j68865505624665_1_alg».proof.Proof.StretchD
import proofs.«146250_j68865505624665_1_alg».proof.Proof.StretchE
import proofs.«146250_j68865505624665_1_alg».proof.Proof.StretchPQ

set_option maxRecDepth 16384

noncomputable section

namespace Cert.Lockstep

open Idealize.ShloMosaic Idealize.ShloMosaic.TcCoe Idealize.SL.Sem Idealize.ShloMosaic.StableHlo
open Idealize.ShloMosaic.RowsTimes
open Cert.KernelIdeal.Gen

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's buffer contents before its first product, after it, after the first layer, after the second product. -/
abbrev X3 : RV Ideal := after rC (after rB (after rA (launchContents m' c)))
abbrev X4 : RV Ideal := after rP (X3 m' c)
abbrev X5 : RV Ideal := after rD (X4 m' c)
abbrev X6 : RV Ideal := after rQ (X5 m' c)

variable (h0 : Ag0 (W0 m ρ c) (launchContents m' c))
include h0

/-- Entering the first product. -/
theorem at3 : Ag3 (W3 m ρ c) (X3 m' c) := stepC (stepB (stepA h0))

/-- Leaving the first product: the pallas_call's output array and the `dot_general`'s result are both `rowsTimes x W1`. -/
theorem at4 : Ag4 (W4 m ρ c) (X4 m' c) where
  v30 := calc W4 m ρ c k⟪Cert.KernelIdeal.main_v30⟫
      _ = (dat0 (V3 m ρ) c).arrAt 2 Cert.KernelIdeal.cfg0.N := W4_arr m ρ c 2
      _ = rowsTimes (V3 m ρ c Cert.KernelIdeal.main_arg0 : Cert.KernelIdeal.S100000x64.Idx → EReal) (V3 m ρ c Cert.KernelIdeal.main_arg2 : Cert.KernelIdeal.S64x64.Idx → EReal) :=
          Cert.KernelIdeal.Region0.final (V3 m ρ) c
      _ = rowsTimes (X3 m' c r⟪Cert.ReferenceIdeal.main_arg0⟫ : Cert.ReferenceIdeal.S100000x64.Idx → EReal) (X3 m' c r⟪Cert.ReferenceIdeal.main_arg2⟫ : Cert.ReferenceIdeal.S64x64.Idx → EReal) :=
          congrArg₂ rowsTimes (at3 m ρ m' c h0).a0 (at3 m ρ m' c h0).a2
      _ = Host.dotGeneral (F := Ideal) Cert.ReferenceIdeal.dot_S100000x64_S64x64_S100000x64_1_0_0_1_n_n none (X3 m' c r⟪Cert.ReferenceIdeal.main_arg0⟫) (X3 m' c r⟪Cert.ReferenceIdeal.main_arg2⟫) :=
          (hostDot_eq Cert.ReferenceIdeal.dot_S100000x64_S64x64_S100000x64_1_0_0_1_n_n rfl rfl rfl rfl rfl rfl rfl rfl none _ _).symm
      _ = X4 m' c r⟪Cert.ReferenceIdeal.main_v30⟫ := (rP_v30 _).symm
  v29 := (W4_of_ne m ρ c Cert.KernelIdeal.main_v29 (by decide)).trans (((at3 m ρ m' c h0).v29).trans (rP_v29 _).symm)
  v3 := (W4_of_ne m ρ c Cert.KernelIdeal.main_v3 (by decide)).trans (((at3 m ρ m' c h0).v3).trans (rP_v3 _).symm)
  v6 := (W4_of_ne m ρ c Cert.KernelIdeal.main_v6 (by decide)).trans (((at3 m ρ m' c h0).v6).trans (rP_v6 _).symm)
  a3 := (W4_of_ne m ρ c Cert.KernelIdeal.main_arg3 (by decide)).trans (((at3 m ρ m' c h0).a3).trans (rP_a3 _).symm)
  a4 := (W4_of_ne m ρ c Cert.KernelIdeal.main_arg4 (by decide)).trans (((at3 m ρ m' c h0).a4).trans (rP_a4 _).symm)
  a5 := (W4_of_ne m ρ c Cert.KernelIdeal.main_arg5 (by decide)).trans (((at3 m ρ m' c h0).a5).trans (rP_a5 _).symm)

/-- Entering the second product. -/
theorem at5 : Ag5 (W5 m ρ c) (X5 m' c) := stepD (at4 m ρ m' c h0)

/-- Leaving the second product: both sides hold `rowsTimes h W2`. -/
theorem at6 : Ag6 (W6 m ρ c) (X6 m' c) where
  v47 := calc W6 m ρ c k⟪Cert.KernelIdeal.main_v47⟫
      _ = (dat1 (V5 m ρ) c).arrAt 2 Cert.KernelIdeal.cfg1.N := W6_arr m ρ c 2
      _ = rowsTimes (V5 m ρ c Cert.KernelIdeal.main_v46 : Cert.KernelIdeal.S100000x64.Idx → EReal) (V5 m ρ c Cert.KernelIdeal.main_arg4 : Cert.KernelIdeal.S64x32.Idx → EReal) :=
          Cert.KernelIdeal.Region1.final (V5 m ρ) c
      _ = rowsTimes (X5 m' c r⟪Cert.ReferenceIdeal.main_v46⟫ : Cert.ReferenceIdeal.S100000x64.Idx → EReal) (X5 m' c r⟪Cert.ReferenceIdeal.main_arg4⟫ : Cert.ReferenceIdeal.S64x32.Idx → EReal) :=
          congrArg₂ rowsTimes (at5 m ρ m' c h0).v46 (at5 m ρ m' c h0).a4
      _ = Host.dotGeneral (F := Ideal) Cert.ReferenceIdeal.dot_S100000x64_S64x32_S100000x32_1_0_0_1_n_n none (X5 m' c r⟪Cert.ReferenceIdeal.main_v46⟫) (X5 m' c r⟪Cert.ReferenceIdeal.main_arg4⟫) :=
          (hostDot_eq Cert.ReferenceIdeal.dot_S100000x64_S64x32_S100000x32_1_0_0_1_n_n rfl rfl rfl rfl rfl rfl rfl rfl none _ _).symm
      _ = X6 m' c r⟪Cert.ReferenceIdeal.main_v47⟫ := (rQ_v47 _).symm
  v29 := (W6_of_ne m ρ c Cert.KernelIdeal.main_v29 (by decide)).trans (((at5 m ρ m' c h0).v29).trans (rQ_v29 _).symm)
  v3 := (W6_of_ne m ρ c Cert.KernelIdeal.main_v3 (by decide)).trans (((at5 m ρ m' c h0).v3).trans (rQ_v3 _).symm)
  v6 := (W6_of_ne m ρ c Cert.KernelIdeal.main_v6 (by decide)).trans (((at5 m ρ m' c h0).v6).trans (rQ_v6 _).symm)
  a5 := (W6_of_ne m ρ c Cert.KernelIdeal.main_arg5 (by decide)).trans (((at5 m ρ m' c h0).a5).trans (rQ_a5 _).symm)

/-- THE TWO RESULTS ARE ONE ARRAY: the reference's fold at its result buffer is what the kernel's result buffer ends holding. -/
theorem result_eq :
    after Cert.ReferenceIdeal.ValueP.ops (launchContents m' c) r⟪Cert.ReferenceIdeal.main_v63⟫ = Cert.KernelIdeal.Named.result m ρ c :=
  (congrFun (after_ops (launchContents m' c)) r⟪Cert.ReferenceIdeal.main_v63⟫).trans (stepE (at6 m ρ m' c h0)).symm

end Cert.Lockstep

end
-- ==== Proof.lean ====
/-
  A two-layer graph convolution: the Pallas program against its jnp reference, over the extended reals.

  Both programs build the edge lists with self loops, the symmetric normalisation `dinv[src] * dinv[dst]`, and then twice:
  multiply the node features by a weight matrix, gather the rows at the edge sources, scale them by the edge weights,
  scatter-add them at the edge destinations and add a bias. They differ only in the two matrix products: the reference calls
  `dot_general`, the kernel a pallas_call that walks the 100000 rows in twenty blocks of 5000, rounds the operands to bf16
  (the identity over the extended reals) and multiplies each block into a zero accumulator. Entry `(r, c)` of either is the
  sum over `k` of `x (r, k) · w (k, c)` (`RowsTimes.rowsTimes`), so the two programs are the same chain of functions of the
  arguments (`Lockstep.result_eq`), and the result arrays are equal entry by entry — for every input, finite or not.
  The ideal pass rewrote nothing in the kernel, so `preserves` has no conjunct.
-/
import proofs.«146250_j68865505624665_1_alg».proof.Defs
import proofs.«146250_j68865505624665_1_alg».proof.Proof.Gen.Kernel
import proofs.«146250_j68865505624665_1_alg».proof.Proof.Gen.Kernel.Skeleton
import proofs.«146250_j68865505624665_1_alg».proof.Proof.Gen.Kernel.Launch
import proofs.«146250_j68865505624665_1_alg».proof.Proof.Gen.Kernel.Points
import proofs.«146250_j68865505624665_1_alg».proof.Proof.Gen.Kernel.Frame
import proofs.«146250_j68865505624665_1_alg».proof.Proof.Gen.KernelIdeal
import proofs.«146250_j68865505624665_1_alg».proof.Proof.Gen.KernelIdeal.Skeleton
import proofs.«146250_j68865505624665_1_alg».proof.Proof.Gen.KernelIdeal.Launch
import proofs.«146250_j68865505624665_1_alg».proof.Proof.Gen.KernelIdeal.Points
import proofs.«146250_j68865505624665_1_alg».proof.Proof.Gen.KernelIdeal.Frame
import proofs.«146250_j68865505624665_1_alg».proof.Proof.Gen.ReferenceIdeal
import proofs.«146250_j68865505624665_1_alg».proof.Proof.Gen.Pre_finite_inputs
import proofs.«146250_j68865505624665_1_alg».proof.Proof.RefOps
import proofs.«146250_j68865505624665_1_alg».proof.Proof.KernelRun
import proofs.«146250_j68865505624665_1_alg».proof.Proof.Bridge
import Idealize.ShloMosaic.Adequacy
import Idealize.ShloMosaic.Init

noncomputable section

namespace Cert.Proof

open Idealize.ShloMosaic Idealize.SL.Sem Idealize.ShloMosaic.StableHlo

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and no operation writes an argument. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments, the kernel's result buffer ends at the fold of its segments and the reference's
    at the fold of its operations; the two folds hold the same array (`Lockstep.result_eq`). -/
theorem algebraic : Cert.algebraic_KernelIdeal_ReferenceIdeal := by
  intro m ρ m' ρ' _ hagree
  refine ⟨fun c => Cert.KernelIdeal.Named.result m ρ c, Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  exact Cert.Lockstep.result_eq m ρ m' c ⟨e0.symm, e1.symm, e2.symm, e3.symm, e4.symm, e5.symm⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
